-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2048x4096 : Shape := ⟨2, ![2048, 4096]⟩
abbrev S2048 : Shape := ⟨1, ![2048]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S2048x4096 .f32) (main_arg2 : FVec F S2048 .f32) (main_arg3 : FVec F S2048 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S8192x4096 : Shape := ⟨2, ![8192, 4096]⟩
abbrev S2048x4096 : Shape := ⟨2, ![2048, 4096]⟩
abbrev S2048 : Shape := ⟨1, ![2048]⟩
abbrev S4096 : Shape := ⟨1, ![4096]⟩
abbrev S256x4096 : Shape := ⟨2, ![256, 4096]⟩
abbrev S1x2048 : Shape := ⟨2, ![1, 2048]⟩
abbrev S1x4096 : Shape := ⟨2, ![1, 4096]⟩
abbrev S256x2048 : Shape := ⟨2, ![256, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S2048, .f32⟩
  | .hbm, ⟨3, _⟩ => ⟨S2048, .f32⟩
  | .hbm, ⟨4, _⟩ => ⟨S4096, .f32⟩
  | .hbm, ⟨5, _⟩ => ⟨S2048x4096, .bf16⟩
  | .hbm, ⟨6, _⟩ => ⟨S1x2048, .f32⟩
  | .hbm, ⟨7, _⟩ => ⟨S1x2048, .f32⟩
  | .hbm, ⟨8, _⟩ => ⟨S1x4096, .f32⟩
  | .hbm, ⟨9, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .f32⟩
  | .local _ .vmem, ⟨5, _⟩ => ⟨S256x4096, .f32⟩
  | .local _ .vmem, ⟨6, _⟩ => ⟨S2048x4096, .bf16⟩
  | .local _ .vmem, ⟨7, _⟩ => ⟨S1x2048, .f32⟩
  | .local _ .vmem, ⟨8, _⟩ => ⟨S1x2048, .f32⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S256x4096_S256x4096_0_0 : ∀ a, (![0, 0] : Fin 2 → Nat) a + S256x4096.size a ≤ S256x4096.size a
  h_S256x4096 : 0 < S256x4096.numel
  natLt_1_32 : 1 < 32
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S2048_S1x2048 : S2048.ShapeCasts S1x2048
  shapeCasts_S4096_S1x4096 : S4096.ShapeCasts S1x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S2048x4096_S256x2048_1_1_0_0_n_n_wf : DotDims.WF S256x4096 S2048x4096 S256x2048 [1] [1] [0] [0] [] []
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S2048x4096.size a
  hwx1_1 : ∀ i : grid1.Coords, EltTy.bits .bf16 = 32 ∨ (Rect.block (s := S2048x4096) S2048x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .f32 = 32 ∨ (Rect.block (s := S8192x4096) S256x4096.size (cc1_transform_5 i) (hinb1_5 i)).WholeWords (EltTy.packing .f32)

variable [Facts₀]

def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S2048x4096 : Shape := ⟨2, ![2048, 4096]⟩
abbrev S2048 : Shape := ⟨1, ![2048]⟩
abbrev S4096 : Shape := ⟨1, ![4096]⟩
abbrev S_ : Shape := ⟨0, ![]⟩
abbrev S4096x2048 : Shape := ⟨2, ![4096, 2048]⟩
abbrev S8192x2048 : Shape := ⟨2, ![8192, 2048]⟩
abbrev S1x2048 : Shape := ⟨2, ![1, 2048]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S2048, .f32⟩
  | .hbm, ⟨3, _⟩ => ⟨S2048, .f32⟩
  | .hbm, ⟨4, _⟩ => ⟨S4096, .f32⟩
  | .hbm, ⟨5, _⟩ => ⟨S_, .f32⟩
  | .hbm, ⟨6, _⟩ => ⟨S2048x4096, .f32⟩
  | .hbm, ⟨7, _⟩ => ⟨S2048x4096, .i1⟩
  | .hbm, ⟨8, _⟩ => ⟨S2048x4096, .f32⟩
  | .hbm, ⟨9, _⟩ => ⟨S4096x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .i1⟩
  | .hbm, ⟨20, _⟩ => ⟨S8192x2048, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S2048x4096 : S_.BroadcastsInDim S2048x4096 (![] : Fin 0 → Fin S2048x4096.rank)
  transposes_S2048x4096_S4096x2048_1_0 : S2048x4096.Transposes [1, 0] S4096x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x2048_S8192x2048_1_0_0_1_n_n_wf : DotDims.WF S8192x4096 S4096x2048 S8192x2048 [1] [0] [0] [1] [] []
  dot_S8192x2048_S2048x4096_S8192x4096_1_0_0_1_n_n_wf : DotDims.WF S8192x2048 S2048x4096 S8192x4096 [1] [0] [0] [1] [] []

variable [Facts₀]

def dot_S8192x4096_S4096x2048_S8192x2048_1_0_0_1_n_n : DotDims S8192x4096 S4096x2048 S8192x2048 where
  lhsContracting := [1]
  rhsContracting := [0]
  lhsNonContracting := [0]
  rhsNonContracting := [1]
  lhsBatch := []
  rhsBatch := []
  wf := dot_S8192x4096_S4096x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.Spec.lean ====
/-
  The binarized two-layer network as ONE function of its five argument arrays, index by index, over the extended reals.

  With `step θ a` the indicator of `a ≥ θ` (one where it holds, zero elsewhere):
    * the binarized weight is `Wb (q, k) = step ½ (W (q, k))`;
    * the hidden layer is `h (p, q) = step 1 (∑ₖ x (p, k) · Wb (q, k) + b_enc q + b0 q)`;
    * the result is `out (p, j) = step 1 (∑_q h (p, q) · Wb (q, j) + b3 j)`.
  Row `p` of the result depends on row `p` of `x` only, and on all of `W` and of the three bias vectors. The two
  thresholds stay the bit patterns both programs write (`0x3F000000`, `0x3F800000`): nothing here evaluates them.

  `layer` states the second and third lines over ARRAYS — a binarized weight matrix and the biases as one-row
  matrices — which is how a program that computes the weight matrix first, and reshapes the biases, meets them;
  `network` instantiates it at `Wb` and the biases' rows.
-/
import Idealize.ShloMosaic.Lib.ValueIdx
import Idealize.ShloMosaic.PureOps.Ideal.Laws

noncomputable section

open scoped BigOperators

namespace Cert.BinaryMlp

open Idealize.ShloMosaic Idealize.ShloMosaic.ValueIdx

/-- The indicator of `a ≥ θ` on the extended reals: the comparison's bit read as the number `0` or `1`. -/
def step (θ a : EReal) : EReal :=
  FloatOps.uitofp (F := Ideal) .f32 (FloatOps.cmpf (F := Ideal) (φ := .f32) .oge a θ)

/-- A single bit widened to 32 bits with zeros and then read as a SIGNED integer is the bit read as an unsigned one:
    the widened word is `0` or `1`, far below the sign bit. -/
theorem sitofp_setWidth_bit (b : BitVec 1) :
    FloatOps.sitofp (F := Ideal) .f32 (b.setWidth 32) = FloatOps.uitofp (F := Ideal) .f32 b := by
  have h : (b.setWidth 32).toInt = (b.toNat : Int) := by
    by_cases hb : b = 1#1
    · subst hb; decide
    · rw [eq_zero_of_ne_one hb]; decide
  show (((b.setWidth 32).toInt : ℝ) : EReal) = ((b.toNat : ℝ) : EReal)
  rw [h, Int.cast_natCast]

/-- So the indicator may be taken either way: the comparison's bit zero-extended and converted as a signed word. -/
theorem sitofp_extui_cmp (θ a : EReal) :
    FloatOps.sitofp (F := Ideal) .f32 ((FloatOps.cmpf (F := Ideal) (φ := .f32) .oge a θ).setWidth 32) = step θ a :=
  sitofp_setWidth_bit _

/-! ## The layers over arrays -/

section Layers

variable (X : (⟨2, ![8192, 4096]⟩ : Shape).Idx → EReal) (Wb : (⟨2, ![2048, 4096]⟩ : Shape).Idx → EReal)
  (BE B0 : (⟨2, ![1, 2048]⟩ : Shape).Idx → EReal) (B3 : (⟨2, ![1, 4096]⟩ : Shape).Idx → EReal)

/-- Hidden unit `q` of row `p`: the indicator of `∑ₖ X (p, k) · Wb (q, k) + BE q + B0 q ≥ 1`. -/
def hidAt (p : Fin 8192) (q : Fin 2048) : EReal :=
  step (Ideal.ofBits .f32 0x3F800000#32)
    ((∑ k : Fin 4096, X (ix2 p k) * Wb (ix2 q k)) + BE (ix2 (0 : Fin 1) q) + B0 (ix2 (0 : Fin 1) q))

/-- Result entry `(p, j)`: the indicator of `∑_q hid (p, q) · Wb (q, j) + B3 j ≥ 1`. -/
def layerAt (p : Fin 8192) (j : Fin 4096) : EReal :=
  step (Ideal.ofBits .f32 0x3F800000#32)
    ((∑ q : Fin 2048, hidAt X Wb BE B0 p q * Wb (ix2 q j)) + B3 (ix2 (0 : Fin 1) j))

/-- The result array, from the data, a binarized weight matrix and the biases as one-row matrices. -/
def layer : (⟨2, ![8192, 4096]⟩ : Shape).Idx → EReal := fun i => layerAt X Wb BE B0 B3 (i 0) (i 1)

theorem layer_ix2 (p : Fin 8192) (j : Fin 4096) : layer X Wb BE B0 B3 (ix2 p j) = layerAt X Wb BE B0 B3 p j := rfl

end Layers

/-! ## The network of the argument arrays -/

/-- The binarized weight matrix: the indicator of `W ≥ ½`, entry by entry. -/
def wbin (W : (⟨2, ![2048, 4096]⟩ : Shape).Idx → EReal) : (⟨2, ![2048, 4096]⟩ : Shape).Idx → EReal :=
  fun i => step (Ideal.ofBits .f32 0x3F000000#32) (W i)

/-- A vector as the one-row matrix holding it. -/
def rowOf {n : Nat} (v : (⟨1, ![n]⟩ : Shape).Idx → EReal) : (⟨2, ![1, n]⟩ : Shape).Idx → EReal := fun i => v (ix1 (i 1))

theorem rowOf_ix2 {n : Nat} (v : (⟨1, ![n]⟩ : Shape).Idx → EReal) (u : Fin 1) (q : Fin n) : rowOf v (ix2 u q) = v (ix1 q) := rfl

/-- THE RESULT: the network of the data `x`, the weights `W` and the biases `b_enc`, `b0`, `b3`. -/
def network (x : (⟨2, ![8192, 4096]⟩ : Shape).Idx → EReal) (W : (⟨2, ![2048, 4096]⟩ : Shape).Idx → EReal)
    (be b0 : (⟨1, ![2048]⟩ : Shape).Idx → EReal) (b3 : (⟨1, ![4096]⟩ : Shape).Idx → EReal) :
    (⟨2, ![8192, 4096]⟩ : Shape).Idx → EReal :=
  layer x (wbin W) (rowOf be) (rowOf b0) (rowOf b3)

end Cert.BinaryMlp

end
-- ==== Proof.RefValue.lean ====
/-
  The reference computes the network: its result, stage by stage, is `Cert.BinaryMlp.network` of its arguments.

  The reference binarizes `W`, transposes the binarized matrix and contracts `x`'s columns with the transpose's rows —
  entry `(p, q)` of that product is `∑ₖ x (p, k) · Wb (q, k)`, the transpose read back —, adds the two hidden biases (each
  broadcast from a vector to one row and from the row to every row), thresholds at one, contracts the hidden layer with
  the binarized matrix itself, adds the last bias and thresholds again. Each stage is read at an index `(p, q)` by the
  generated one-operation lemmas; what is left is to name the indices they compute.
-/
import proofs.«163773_j34729105555676_1_alg».proof.Proof.Gen.ReferenceIdeal.Read
import proofs.«163773_j34729105555676_1_alg».proof.Proof.Spec

noncomputable section

open scoped BigOperators

namespace Cert.BinaryMlp.Reference

open Cert.ReferenceIdeal Cert.ReferenceIdeal.Read Idealize.ShloMosaic Idealize.ShloMosaic.ValueIdx Cert.BinaryMlp

variable (x : FVec Ideal S8192x4096 .f32) (W : FVec Ideal S2048x4096 .f32) (be b0 : FVec Ideal S2048 .f32)
  (b3 : FVec Ideal S4096 .f32)

/-! ## The indices the stages read, by coordinates -/

/-- The transpose at `(k, q)` reads the matrix at `(q, k)`. -/
theorem transposed_idx (k : Fin 4096) (q : Fin 2048) : idx_main_v3 (ix2 k q) = ix2 q k :=
  funext fun a => Fin.ext (by match a with | ⟨0, _⟩ => rfl | ⟨1, _⟩ => rfl)

/-- The first product at `(p, q)`, contraction coordinate `k`: the data at `(p, k)`, the transpose at `(k, q)`. -/
theorem enc_lidx (p : Fin 8192) (q : Fin 2048) (k : Fin 4096) : lidx_main_v4 (ix2 p q) k = ix2 p k :=
  funext fun a => Fin.ext (by match a with | ⟨0, _⟩ => rfl | ⟨1, _⟩ => rfl)
theorem enc_ridx (p : Fin 8192) (q : Fin 2048) (k : Fin 4096) : ridx_main_v4 (ix2 p q) k = ix2 k q :=
  funext fun a => Fin.ext (by match a with | ⟨0, _⟩ => rfl | ⟨1, _⟩ => rfl)

/-- A hidden bias at `(p, q)`: broadcast over the rows from its one row, which holds the vector: entry `q`. -/
theorem benc_idx (p : Fin 8192) (q : Fin 2048) : idx_main_v5 (idx_main_v6 (ix2 p q)) = ix1 q :=
  funext fun a => Fin.ext (by match a with | ⟨0, _⟩ => rfl)
theorem b0_idx (p : Fin 8192) (q : Fin 2048) : idx_main_v8 (idx_main_v9 (ix2 p q)) = ix1 q :=
  funext fun a => Fin.ext (by match a with | ⟨0, _⟩ => rfl)

/-- The second product at `(p, j)`, contraction coordinate `q`: the hidden layer at `(p, q)`, the matrix at `(q, j)`. -/
theorem dec_lidx (p : Fin 8192) (j : Fin 4096) (q : Fin 2048) : lidx_main_v14 (ix2 p j) q = ix2 p q :=
  funext fun a => Fin.ext (by match a with | ⟨0, _⟩ => rfl | ⟨1, _⟩ => rfl)
theorem dec_ridx (p : Fin 8192) (j : Fin 4096) (q : Fin 2048) : ridx_main_v14 (ix2 p j) q = ix2 q j :=
  funext fun a => Fin.ext (by match a with | ⟨0, _⟩ => rfl | ⟨1, _⟩ => rfl)

/-- The last bias at `(p, j)`: entry `j` of the vector. -/
theorem b3_idx (p : Fin 8192) (j : Fin 4096) : idx_main_v15 (idx_main_v16 (ix2 p j)) = ix1 j :=
  funext fun a => Fin.ext (by match a with | ⟨0, _⟩ => rfl)

/-! ## The stages -/

/-- The reference's binarized matrix is the specification's. -/
theorem binarized_eq : val_main_v2 (F := Ideal) W = wbin W := funext fun i => by
  rw [val_main_v2_apply, val_main_v1_apply, val_main_v0_apply, val_main_cst_apply]
  rfl

/-- Its hidden layer at `(p, q)` is the specification's hidden unit. -/
theorem hidden_eq (p : Fin 8192) (q : Fin 2048) :
    val_main_v13 (F := Ideal) x W be b0 (ix2 p q) = hidAt x (wbin W) (rowOf be) (rowOf b0) p q := by
  rw [val_main_v13_apply, val_main_v12_apply, val_main_v10_apply, val_main_v7_apply, val_main_v4_apply,
    val_main_v6_apply, val_main_v5_apply, val_main_v9_apply, val_main_v8_apply, val_main_v11_apply,
    val_main_cst_0_apply]
  simp only [val_main_v3_apply, enc_lidx, enc_ridx, transposed_idx, benc_idx, b0_idx, binarized_eq]
  rfl

/-- Its result at `(p, j)` is the network's. -/
theorem result_at (p : Fin 8192) (j : Fin 4096) :
    val_main_v20 (F := Ideal) x W be b0 b3 (ix2 p j) = network x W be b0 b3 (ix2 p j) := by
  rw [val_main_v20_apply, val_main_v19_apply, val_main_v17_apply, val_main_v14_apply, val_main_v16_apply,
    val_main_v15_apply, val_main_v18_apply, val_main_cst_1_apply]
  simp only [dec_lidx, dec_ridx, b3_idx, hidden_eq, binarized_eq]
  rfl

/-- THE REFERENCE'S RESULT IS THE NETWORK of its arguments. -/
theorem result_eq : val_main_v20 (F := Ideal) x W be b0 b3 = network x W be b0 b3 := funext fun i => by
  obtain ⟨p, j, rfl⟩ : ∃ (p : Fin 8192) (j : Fin 4096), i = ix2 p j := ⟨i 0, i 1, eq_ix2 i⟩
  exact result_at x W be b0 b3 p j

end Cert.BinaryMlp.Reference

end
-- ==== Proof.LibMatmulNT.lean ====
/-
  A matrix product whose right operand is contracted on its LAST axis, read at an index, over the extended reals.

  For dimension numbers that contract the left operand's axis 1 with the right operand's axis 1, keep axis 0 of each,
  and have no batch axes — `[M, K] · [N, K] → [M, N]`, the product with the transposed right operand in which no
  transpose is ever formed — entry `(p, q)` of the product accumulated into the zero matrix is
  `∑ₖ lhs (p, k) * rhs (q, k)`. The contraction index, a multi-index with one axis, is its one coordinate; at result
  index `(p, q)` and contraction coordinate `k` the left operand is read at `(p, k)` and the right one at `(q, k)`.
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

/-- A coordinate of an index does not depend on how its axis number is spelt. -/
theorem coord_congr {S : Shape} (j : S.Idx) {a b : Nat} (ha : a < S.rank) (hb : b < S.rank) (h : a = b) :
    (j ⟨a, ha⟩).val = (j ⟨b, hb⟩).val := by subst h; rfl

variable {M K N : Nat} (d : DotDims ⟨2, ![M, K]⟩ ⟨2, ![N, K]⟩ ⟨2, ![M, N]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's kept axis is the result's axis 0: its coordinate there is the result's row. -/
theorem lhsIdx_kept (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ (by simp [hlb, hln])

include hln hrn hlb hrb in
/-- The right operand's kept axis is the result's axis 1 (it comes after the left operand's one kept axis): its
    coordinate there is the result's column. -/
theorem rhsIdx_kept (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  exact coord_congr j _ _ (by simp [hlb, hln, hrn])

include hlc in
/-- One axis is contracted, -/
theorem contr_rank : d.contr.rank = 1 := by rw [d.rank_contr, hlc]; rfl

include hlc in
/-- and its extent is the operands' shared inner extent. -/
theorem contr_size (h0 : 0 < d.contr.rank) : d.contr.size ⟨0, h0⟩ = K := by
  have h1 : 0 < d.lhsContracting.length := by rw [hlc]; exact Nat.one_pos
  refine (d.size_contr 0 h1).trans ?_
  have e : d.lhsContracting[0] = (1 : Fin (⟨2, ![M, K]⟩ : Shape).rank) := by simp [hlc]
  rw [e]
  rfl

include hlc hrc hln hrn hlb hrb in
/-- ENTRY `(p, q)` OF THE PRODUCT WITH THE TRANSPOSED RIGHT OPERAND, INTO THE ZERO MATRIX: `∑ₖ lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_kept d hln hlb (ix2 p q) _
    | ⟨1, _⟩ => exact (d.lhsIdx_val_of_single (cl := 1) hlc (ix2 p q) _).trans hk)
  have er : d.rhsIdx (ix2 p q) ((contrEquiv1 d K hr hs).symm k) = ix2 q k := funext fun a => Fin.ext (by
    match a with
    | ⟨0, _⟩ => exact rhsIdx_kept d hln hrn hlb hrb (ix2 p q) _
    | ⟨1, _⟩ => exact (d.rhsIdx_val_of_single (cr := 1) hrc (ix2 p q) _).trans hk)
  rw [el, er]

end Idealize.ShloMosaic.MatmulNT
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.Payload.lean ====
/-
  The two kernel bodies read at an index, over the extended reals.

  The first body stores, entry by entry, the indicator of `w ≥ ½` of the weight block it loaded: the comparison's bit
  zero-extended to a word and converted as a signed integer, then narrowed to a shorter float format, which changes
  nothing here. The second body loads a block of 256 rows of the data, the WHOLE binarized matrix and the three biases as
  one-row matrices; row `r`, column `j` of what it stores is
  `step 1 (∑_q step 1 (∑ₖ x (r, k) · wb (q, k) + b_enc q + b0 q) · wb (q, j) + b3 j)`: its first product contracts the
  data's columns with the matrix's columns (the transposed matrix, never formed), its second the hidden units with the
  matrix's rows; both accumulate into zero, the biases are rows repeated down the block, and each change of float format
  is the identity.
-/
import proofs.«163773_j34729105555676_1_alg».proof.Proof.Gen.KernelIdeal.Skeleton
import proofs.«163773_j34729105555676_1_alg».proof.Proof.Spec
import proofs.«163773_j34729105555676_1_alg».proof.Proof.LibMatmulNT
import proofs.«163773_j34729105555676_1_alg».proof.Proof.LibPlainMatmul
import Idealize.ShloMosaic.Lib.ValueLayout
import Idealize.ShloMosaic.Lib.Pipeline.Value

noncomputable section

open scoped BigOperators

namespace Cert.BinaryMlp.Body

open Cert.KernelIdeal Cert.KernelIdeal.Gen Idealize.ShloMosaic Idealize.ShloMosaic.ValueIdx Cert.BinaryMlp

/-- THE FIRST BODY: each stored entry is the indicator of `w ≥ ½` of the loaded one. -/
theorem binarize_at (w : FVec Ideal S256x4096 .f32) (i : S256x4096.Idx) :
    k0_pay1 (F := Ideal) w i = step (Ideal.ofBits .f32 0x3F000000#32) (w i) := by
  unfold k0_pay1
  exact sitofp_extui_cmp _ _

/-- Hidden unit `q` of row `r` of the block, before its threshold: the data's row against the matrix's row `q`, plus
    the two biases' entries `q`. -/
theorem hidden_pre_at (x0 : FVec Ideal S256x4096 .f32) (wb : FVec Ideal S2048x4096 .bf16) (be b0 : FVec Ideal S1x2048 .f32)
    (r : Fin 256) (q : Fin 2048) :
    addf (addf (matmul dot_S256x4096_S2048x4096_S256x2048_1_1_0_0_n_n none (truncf .bf16 x0 bitsLt_bf16_f32) wb
        (constant (F := Ideal) S256x2048 .f32 0x00000000#32))
      (broadcastTo S256x2048 be broadcasts_S1x2048_S256x2048)) (broadcastTo S256x2048 b0 broadcasts_S1x2048_S256x2048) (ix2 r q)
      = (∑ k : Fin 4096, x0 (ix2 r k) * wb (ix2 q k)) + be (ix2 (0 : Fin 1) q) + b0 (ix2 (0 : Fin 1) q) := by
  rw [addf_apply, addf_apply, broadcastTo_1b_ab_apply, broadcastTo_1b_ab_apply]
  refine congrArg (· + be (ix2 (0 : Fin 1) q) + b0 (ix2 (0 : Fin 1) q)) ?_
  exact Idealize.ShloMosaic.MatmulNT.matmul_zero_apply dot_S256x4096_S2048x4096_S256x2048_1_1_0_0_n_n rfl rfl rfl rfl rfl rfl
    none (truncf .bf16 x0 bitsLt_bf16_f32) wb r q

/-- THE SECOND BODY at row `r`, column `j` of the block. -/
theorem mlp_at (x0 : FVec Ideal S256x4096 .f32) (wb : FVec Ideal S2048x4096 .bf16) (be b0 : FVec Ideal S1x2048 .f32)
    (b3 : FVec Ideal S1x4096 .f32) (r : Fin 256) (j : Fin 4096) :
    k1_pay1 (F := Ideal) x0 wb be b0 b3 (ix2 r j)
      = step (Ideal.ofBits .f32 0x3F800000#32)
          ((∑ q : Fin 2048,
              step (Ideal.ofBits .f32 0x3F800000#32)
                ((∑ k : Fin 4096, x0 (ix2 r k) * wb (ix2 q k)) + be (ix2 (0 : Fin 1) q) + b0 (ix2 (0 : Fin 1) q))
              * wb (ix2 q j))
            + b3 (ix2 (0 : Fin 1) j)) := by
  unfold k1_pay1
  simp only [shapeCast_self]
  refine (sitofp_extui_cmp _ _).trans ?_
  refine congrArg (step (Ideal.ofBits .f32 0x3F800000#32)) ?_
  rw [addf_apply, broadcastTo_1b_ab_apply]
  refine congrArg (· + b3 (ix2 (0 : Fin 1) j)) ?_
  refine (Idealize.ShloMosaic.PlainMatmul.matmul_zero_apply dot_S256x2048_S2048x4096_S256x4096_1_0_0_1_n_n rfl rfl rfl rfl rfl rfl
    none _ wb r j).trans ?_
  refine Finset.sum_congr rfl fun q _ => ?_
  refine congrArg (· * wb (ix2 q j)) ?_
  refine (sitofp_extui_cmp _ _).trans ?_
  exact congrArg (step (Ideal.ofBits .f32 0x3F800000#32)) (hidden_pre_at x0 wb be b0 r q)

end Cert.BinaryMlp.Body

end
-- ==== Proof.Region1.lean ====
/-
  The second region's result array: the two layers of the arrays the region finds.

  The region walks the 8192 rows of the data in 32 blocks of 256 rows. At point `t` it reads rows
  `256 t … 256 t + 255` of the data, the WHOLE binarized matrix and the three one-row bias matrices (their one block,
  at every point), and writes the same rows of the result. Row `r` of a data or result block is row `256 t + r` of its
  array; an entry of the other four blocks is the same entry of its array. The body computes a result row from the data
  row alone (and the matrix and biases), so what point `t` writes back is block `t` of ONE whole-array function,
  `layer` of the five arrays; the blocks cover the result (row `p` lies in block `p / 256`); hence the result array
  ends holding `layer`. Stated for any buffer contents `V` at the region's entry.
-/
import proofs.«163773_j34729105555676_1_alg».proof.Proof.Gen.KernelIdeal.Frame
import proofs.«163773_j34729105555676_1_alg».proof.Proof.Payload

set_option maxRecDepth 16384

noncomputable section

namespace Cert.BinaryMlp.Forward

open Cert.KernelIdeal Cert.KernelIdeal.Gen Idealize.ShloMosaic Idealize.ShloMosaic.TcCoe Idealize.ShloMosaic.ValueIdx
open Idealize.SL.Sem Cert.BinaryMlp

variable (V : (c : Dev nD) → (b : Ref sig .tc) → Buf (Elt Ideal) ((c : Thread nD τ).loc b))

/-- The loads' and the store's offsets are zero on both axes. -/
theorem zero_off : (![0, 0] : Fin 2 → Nat) = fun _ => 0 := funext fun a => by fin_cases a <;> rfl

/-- The six windows' block indices at every point of the grid: block row `t` for the data and the result, the one
    block `(0, 0)` for the matrix and the biases. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of block `t`, as a row of the array. -/
def blockRow (t : Fin cfg1.N) (r : Fin 256) : Fin 8192 :=
  ⟨t.val * 256 + r.val, by have := t.isLt; have h : cfg1.N = 32 := N_1; have := r.isLt; omega⟩

/-! ## The blocks read where they lie in their arrays -/

theorem data_block (c : Dev nD) (t : Fin cfg1.N) (r : Fin 256) (k : Fin 4096) :
    iblk1 V c 0 t (ix2 r k) = V c main_arg0 (ix2 (blockRow t r) k) := by
  obtain ⟨e0, e1, -⟩ := block_index t
  show V c main_arg0 (((cfg1.win 0).blk t).view.emb (ix2 r k)) = _
  refine congrArg (V c main_arg0) ?_
  funext a; apply Fin.ext
  match a with
  | ⟨0, _⟩ => show win1_0.index t (0 : Fin 2) * 256 + 1 * r.val = t.val * 256 + r.val; omega
  | ⟨1, _⟩ => show win1_0.index t (1 : Fin 2) * 4096 + 1 * k.val = k.val; omega

theorem matrix_block (c : Dev nD) (t : Fin cfg1.N) (q : Fin 2048) (k : Fin 4096) :
    iblk1 V c 1 t (ix2 q k) = V c main_v0 (ix2 q k) := by
  obtain ⟨-, -, e0, e1, -⟩ := block_index t
  show V c main_v0 (((cfg1.win 1).blk t).view.emb (ix2 q k)) = _
  refine congrArg (V c main_v0) ?_
  funext a; apply Fin.ext
  match a with
  | ⟨0, _⟩ => show win1_1.index t (0 : Fin 2) * 2048 + 1 * q.val = q.val; omega
  | ⟨1, _⟩ => show win1_1.index t (1 : Fin 2) * 4096 + 1 * k.val = k.val; omega

theorem benc_block (c : Dev nD) (t : Fin cfg1.N) (u : Fin 1) (q : Fin 2048) :
    iblk1 V c 2 t (ix2 u q) = V c main_v1 (ix2 u q) := by
  obtain ⟨-, -, -, -, e0, e1, -⟩ := block_index t
  show V c main_v1 (((cfg1.win 2).blk t).view.emb (ix2 u q)) = _
  refine congrArg (V c main_v1) ?_
  funext a; apply Fin.ext
  match a with
  | ⟨0, _⟩ => show win1_2.index t (0 : Fin 2) * 1 + 1 * u.val = u.val; omega
  | ⟨1, _⟩ => show win1_2.index t (1 : Fin 2) * 2048 + 1 * q.val = q.val; omega

theorem b0_block (c : Dev nD) (t : Fin cfg1.N) (u : Fin 1) (q : Fin 2048) :
    iblk1 V c 3 t (ix2 u q) = V c main_v2 (ix2 u q) := by
  obtain ⟨-, -, -, -, -, -, e0, e1, -⟩ := block_index t
  show V c main_v2 (((cfg1.win 3).blk t).view.emb (ix2 u q)) = _
  refine congrArg (V c main_v2) ?_
  funext a; apply Fin.ext
  match a with
  | ⟨0, _⟩ => show win1_3.index t (0 : Fin 2) * 1 + 1 * u.val = u.val; omega
  | ⟨1, _⟩ => show win1_3.index t (1 : Fin 2) * 2048 + 1 * q.val = q.val; omega

theorem b3_block (c : Dev nD) (t : Fin cfg1.N) (u : Fin 1) (j : Fin 4096) :
    iblk1 V c 4 t (ix2 u j) = V c main_v3 (ix2 u j) := by
  obtain ⟨-, -, -, -, -, -, -, -, e0, e1, -⟩ := block_index t
  show V c main_v3 (((cfg1.win 4).blk t).view.emb (ix2 u j)) = _
  refine congrArg (V c main_v3) ?_
  funext a; apply Fin.ext
  match a with
  | ⟨0, _⟩ => show win1_4.index t (0 : Fin 2) * 1 + 1 * u.val = u.val; omega
  | ⟨1, _⟩ => show win1_4.index t (1 : Fin 2) * 4096 + 1 * j.val = j.val; omega

/-- Entry `(r, j)` of the result's block `t` is entry `(256 t + r, j)` of the result array. -/
theorem result_emb (t : Fin cfg1.N) (r : Fin 256) (j : Fin 4096) :
    ((cfg1.win 5).blk t).view.emb (ix2 r j) = ix2 (blockRow t r) j := by
  obtain ⟨-, -, -, -, -, -, -, -, -, -, e0, e1⟩ := block_index t
  funext a; apply Fin.ext
  match a with
  | ⟨0, _⟩ => show win1_5.index t (0 : Fin 2) * 256 + 1 * r.val = t.val * 256 + r.val; omega
  | ⟨1, _⟩ => show win1_5.index t (1 : Fin 2) * 4096 + 1 * j.val = j.val; omega

/-! ## From the blocks to the array -/

/-- WHAT POINT `t` WRITES BACK is block `t` of the layers of the region's five arrays. -/
theorem flushed_eq (c : Dev nD) (t : Fin cfg1.N) :
    (dat1 V c).flushed 5 t = ((cfg1.win 5).blk t).view.read (Elt Ideal)
      (layer (V c main_arg0) (V c main_v0) (V c main_v1) (V c main_v2) (V c main_v3)) := by
  show (cfg1.win 5).cut (grid1.coords t) ((dat1 V c).after 5 t) = _
  rw [after1_5]
  unfold out1_5
  rw [View.canon_unit_zero zero_off]
  simp only [View.ld_unit_zero (S := S256x4096) zero_off, View.ld_unit_zero (S := S2048x4096) zero_off,
    View.ld_unit_zero (S := S1x2048) zero_off, View.ld_unit_zero (S := S1x4096) zero_off]
  funext y
  obtain ⟨r, j, rfl⟩ : ∃ (r : Fin 256) (j : Fin 4096), y = ix2 r j := ⟨y 0, y 1, eq_ix2 y⟩
  refine (Body.mlp_at _ _ _ _ _ r j).trans ?_
  show _ = layer (V c main_arg0) (V c main_v0) (V c main_v1) (V c main_v2) (V c main_v3)
    (((cfg1.win 5).blk t).view.emb (ix2 r j))
  rw [result_emb t r j, layer_ix2]
  simp only [data_block V c t, matrix_block V c t, benc_block V c t, b0_block V c t, b3_block V c t]
  rfl

/-- An entry of the result array lies in point `t`'s block iff each coordinate lies in the block's range on its axis. -/
theorem mem_blk (t : Fin cfg1.N) (i : S8192x4096.Idx) :
    i ∈ ((cfg1.win 5).blk t).view.set ↔ ∀ a : Fin 2, win1_5.index t a * S256x4096.size a ≤ (i a).val
      ∧ (i a).val < win1_5.index t a * S256x4096.size a + S256x4096.size a := by
  show i ∈ ((View.whole main_v4).slice (win1_5.rect t)).set ↔ _
  rw [View.set_slice_whole, Rect.mem_set_unit]
  exact Iff.rfl

/-- THE BLOCKS COVER THE ARRAY: row `p` lies in the block of point `p / 256`. -/
theorem covered (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 32 := N_1
  have hlt : (i 0).val / 256 < cfg1.N := by omega
  obtain ⟨-, -, -, -, -, -, -, -, -, -, e0, e1⟩ := block_index ⟨(i 0).val / 256, hlt⟩
  refine ⟨⟨(i 0).val / 256, hlt⟩, flush1_5 _, ?_⟩
  rw [mem_blk]
  intro a
  match a with
  | ⟨0, _⟩ =>
    show win1_5.index ⟨(i 0).val / 256, hlt⟩ (0 : Fin 2) * 256 ≤ (i 0).val
      ∧ (i 0).val < win1_5.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win1_5.index ⟨(i 0).val / 256, hlt⟩ (1 : Fin 2) * 4096 ≤ (i 1).val
      ∧ (i 1).val < win1_5.index ⟨(i 0).val / 256, hlt⟩ (1 : Fin 2) * 4096 + 4096
    rw [e1]; omega

/-- THE ARRAY AFTER THE REGION: the two layers of the five arrays the region found. -/
theorem final (c : Dev nD) : (dat1 V c).arrAt 5 cfg1.N
    = layer (V c main_arg0) (V c main_v0) (V c main_v1) (V c main_v2) (V c main_v3) :=
  (dat1 V c).arrAt_eq_of_cover 5 _ (fun t _ => flushed_eq V c t) covered

end Cert.BinaryMlp.Forward

end
-- ==== Proof.Region0.lean ====
/-
  The first region's result array: the binarized weight matrix.

  The region walks the 2048 rows of `W` in 8 blocks of 256 rows; at point `t` it reads rows `256 t … 256 t + 255` of
  `W` (all 4096 columns) and writes the same rows of the result, each entry the indicator of `w ≥ ½`. Entry `(q, k)`
  of a block is entry `(256 t + q, k)` of its array — for the block read and the block written alike —, so what point
  `t` writes back is block `t` of ONE whole-array function, `wbin` of the weights; the blocks cover the array (row `q`
  lies in block `q / 256`); hence the array ends holding `wbin W`. Stated for any buffer contents `V` at the region's
  entry.
-/
import proofs.«163773_j34729105555676_1_alg».proof.Proof.Gen.KernelIdeal.Frame
import proofs.«163773_j34729105555676_1_alg».proof.Proof.Payload

set_option maxRecDepth 16384

noncomputable section

namespace Cert.BinaryMlp.Weights

open Cert.KernelIdeal Cert.KernelIdeal.Gen Idealize.ShloMosaic Idealize.ShloMosaic.TcCoe Idealize.ShloMosaic.ValueIdx
open Idealize.SL.Sem Cert.BinaryMlp

variable (V : (c : Dev nD) → (b : Ref sig .tc) → Buf (Elt Ideal) ((c : Thread nD τ).loc b))

/-- The loads' and the store's offsets are zero on both axes. -/
theorem zero_off : (![0, 0] : Fin 2 → Nat) = fun _ => 0 := funext fun a => by fin_cases a <;> rfl

/-- The two windows' block indices at every point of the grid: block row `t`, block column `0`, for the weights read
    and the matrix written alike. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the binarized weights. -/
theorem flushed_eq (c : Dev nD) (t : Fin cfg0.N) :
    (dat0 V c).flushed 1 t = ((cfg0.win 1).blk t).view.read (Elt Ideal) (wbin (V c main_arg1)) := by
  show (cfg0.win 1).cut (grid0.coords t) ((dat0 V c).after 1 t) = _
  rw [after0_1]
  unfold out0_1
  rw [View.canon_unit_zero zero_off]
  simp only [View.ld_unit_zero (S := S256x4096) zero_off]
  obtain ⟨e0, e1, e2, e3⟩ := block_index t
  funext y
  refine (Body.binarize_at _ y).trans ?_
  show step (Ideal.ofBits .f32 0x3F000000#32) (V c main_arg1 (((cfg0.win 0).blk t).view.emb y))
    = step (Ideal.ofBits .f32 0x3F000000#32) (V c main_arg1 (((cfg0.win 1).blk t).view.emb y))
  have h : ((cfg0.win 0).blk t).view.emb y = ((cfg0.win 1).blk t).view.emb y := by
    funext a; apply Fin.ext
    match a with
    | ⟨0, _⟩ => show win0_0.index t (0 : Fin 2) * 256 + 1 * (y 0).val = win0_1.index t (0 : Fin 2) * 256 + 1 * (y 0).val; omega
    | ⟨1, _⟩ => show win0_0.index t (1 : Fin 2) * 4096 + 1 * (y 1).val = win0_1.index t (1 : Fin 2) * 4096 + 1 * (y 1).val; omega
  rw [h]

/-- An entry of the result array lies in point `t`'s block iff each coordinate lies in the block's range on its axis. -/
theorem mem_blk (t : Fin cfg0.N) (i : S2048x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- THE BLOCKS COVER THE ARRAY: row `q` lies in the block of point `q / 256`. -/
theorem covered (i : S2048x4096.Idx) :
    ∃ t : Fin cfg0.N, (cfg0.win 1).flush t = true ∧ i ∈ ((cfg0.win 1).blk t).view.set := by
  have hi0 : (i 0).val < 2048 := (i 0).isLt
  have hi1 : (i 1).val < 4096 := (i 1).isLt
  have hN : cfg0.N = 8 := N_0
  have hlt : (i 0).val / 256 < cfg0.N := by omega
  obtain ⟨-, -, e2, e3⟩ := block_index ⟨(i 0).val / 256, hlt⟩
  refine ⟨⟨(i 0).val / 256, hlt⟩, flush0_1 _, ?_⟩
  rw [mem_blk]
  intro a
  match a with
  | ⟨0, _⟩ =>
    show win0_1.index ⟨(i 0).val / 256, hlt⟩ (0 : Fin 2) * 256 ≤ (i 0).val
      ∧ (i 0).val < win0_1.index ⟨(i 0).val / 256, hlt⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, hlt⟩ (1 : Fin 2) * 4096 ≤ (i 1).val
      ∧ (i 1).val < win0_1.index ⟨(i 0).val / 256, hlt⟩ (1 : Fin 2) * 4096 + 4096
    rw [e3]; omega

/-- THE ARRAY AFTER THE REGION: the binarized weights. -/
theorem final (c : Dev nD) : (dat0 V c).arrAt 1 cfg0.N = wbin (V c main_arg1) :=
  (dat0 V c).arrAt_eq_of_cover 1 (wbin (V c main_arg1)) (fun t _ => flushed_eq V c t) covered

end Cert.BinaryMlp.Weights

end
-- ==== Proof.Entry.lean ====
/-
  What the second region finds in its five arrays, from the launch memory `m`.

  Between the launch and the second region's entry there are the first region and three reshapes of the bias vectors.
  No one of them writes the data, so the data array still holds `m`'s. The first region leaves the binarized weights of
  `m`'s weights in its result array, and no reshape writes that array. Each reshape writes a vector of `m` into a one-row
  matrix: the row holding that vector.
-/
import proofs.«163773_j34729105555676_1_alg».proof.Proof.Gen.KernelIdeal.Frame
import proofs.«163773_j34729105555676_1_alg».proof.Proof.Region0
import Idealize.ShloMosaic.Lib.StableHlo.Run
import Idealize.ShloMosaic.Lib.ValueLayout

set_option maxRecDepth 16384

noncomputable section

namespace Cert.BinaryMlp.Entry

open Cert.KernelIdeal Cert.KernelIdeal.Gen Idealize.ShloMosaic Idealize.ShloMosaic.TcCoe Idealize.ShloMosaic.ValueIdx
open Idealize.SL.Sem Cert.BinaryMlp Idealize.ShloMosaic.StableHlo

variable (m : (ℓ : Loc nD τ sig) → Buf (Elt Ideal) ℓ) (ρ : Dev nD → PrngReg)

/-- A vector reshaped to one row is the row holding it. -/
theorem row_of_reshape {n : Nat} (v : (⟨1, ![n]⟩ : Shape).Idx → EReal) (h : (⟨1, ![n]⟩ : Shape).ShapeCasts ⟨2, ![1, n]⟩) :
    shapeCast ⟨2, ![1, n]⟩ v h = rowOf v := funext fun i => by
  obtain ⟨u, q, rfl⟩ : ∃ (u : Fin 1) (q : Fin n), i = ix2 u q := ⟨i 0, i 1, eq_ix2 i⟩
  exact shapeCast_a_1a_apply v h u q

/-- THE DATA: as launched (the second region only reads it, and nothing before the region writes it). -/
theorem data (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- THE MATRIX: the binarized weights of the launch memory's weights — what the first region left, which no reshape
    writes. -/
theorem matrix (c : Dev nD) : V2 m ρ c main_v0 = wbin (m ((c : Thread nD τ).loc main_arg1)) := by
  have kept : W2 m ρ c (Proc.devRef .tc main_v0) = W1 m ρ c (Proc.devRef .tc main_v0) := by
    show StableHlo.after hostOps1 (W1 m ρ c) (Proc.devRef .tc main_v0) = _
    after_results
  exact kept.trans ((W1_arr m ρ c 1).trans (Weights.final (V0 m ρ) c))

/-- THE FIRST HIDDEN BIAS: the row holding the launch memory's vector. -/
theorem benc (c : Dev nD) : V2 m ρ c main_v1 = rowOf (m ((c : Thread nD τ).loc main_arg2)) := by
  have e : W2 m ρ c (Proc.devRef .tc main_v1)
      = shapeCast S1x2048 (m ((c : Thread nD τ).loc main_arg2)) shapeCasts_S2048_S1x2048 := by
    show StableHlo.after hostOps1 (W1 m ρ c) (Proc.devRef .tc main_v1) = _
    after_results
    rw [W1_of_ne m ρ c main_arg2 (by decide)]
    rfl
  exact e.trans (row_of_reshape _ _)

/-- THE SECOND HIDDEN BIAS likewise. -/
theorem b0 (c : Dev nD) : V2 m ρ c main_v2 = rowOf (m ((c : Thread nD τ).loc main_arg3)) := by
  have e : W2 m ρ c (Proc.devRef .tc main_v2)
      = shapeCast S1x2048 (m ((c : Thread nD τ).loc main_arg3)) shapeCasts_S2048_S1x2048 := by
    show StableHlo.after hostOps1 (W1 m ρ c) (Proc.devRef .tc main_v2) = _
    after_results
    rw [W1_of_ne m ρ c main_arg3 (by decide)]
    rfl
  exact e.trans (row_of_reshape _ _)

/-- THE LAST BIAS likewise. -/
theorem b3 (c : Dev nD) : V2 m ρ c main_v3 = rowOf (m ((c : Thread nD τ).loc main_arg4)) := by
  have e : W2 m ρ c (Proc.devRef .tc main_v3)
      = shapeCast S1x4096 (m ((c : Thread nD τ).loc main_arg4)) shapeCasts_S4096_S1x4096 := by
    show StableHlo.after hostOps1 (W1 m ρ c) (Proc.devRef .tc main_v3) = _
    after_results
    rw [W1_of_ne m ρ c main_arg4 (by decide)]
    rfl
  exact e.trans (row_of_reshape _ _)

end Cert.BinaryMlp.Entry

end
-- ==== Proof.KernelRun.lean ====
/-
  The kernel program's run, read at EVERY buffer the program does not scope to a region.

  @main is three segments: the first region, the three reshapes, the second region. Each segment takes the TensorCore's
  unscoped buffers from one boundary's contents to the next (`W0` the launch memory, `W1` after the first region, `W2`
  after the reshapes, `W3` after the second region); the regions' staging buffers and semaphores are scoped and invisible
  outside them. So every weakly fair execution terminates, nothing faulting, in a memory that holds `W3` at every
  unscoped buffer: the argument arrays, where `W3` is still the launch memory, AND the result array, where `W3` is what
  the second region's write-backs left. The frame claim reads only the former; a value claim needs the latter, so the
  launch is stated here with the final reading left to the caller.
-/
import proofs.«163773_j34729105555676_1_alg».proof.Proof.Gen.KernelIdeal.Frame

set_option maxRecDepth 16384

noncomputable section

namespace Cert.BinaryMlp.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE RUN, at any float values: from any memory with zero counters every weakly fair execution of @main on the
    TensorCores terminates, nothing faulting, and every final memory satisfies whatever follows (`hQ`) from its holding
    the last boundary's contents `W3` at every unscoped buffer of every core. The three segments chain from the launch
    memory's buffers to `W3`'s; the launch deals each core its buffers, its generator register and an empty debt, which
    is the first segment's entry state; the last segment's exit state is read against the final memory buffer by
    buffer. -/
theorem run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- THE RUN WITH THE RESULT NAMED: the result array ends at what the second region's write-backs leave, and each
    argument array as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_boundary m ρ fun s h c =>
    ⟨(h c _ (mem_uc main_v4 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩

end Cert.BinaryMlp.Run

end
-- ==== Proof.lean ====
/-
  A binarized two-layer network: the kernel program and the reference compute the same result, at the exact values.

  With `step θ a` the indicator of `a ≥ θ`, both programs compute, from data `x` (8192 × 4096), weights `W`
  (2048 × 4096) and biases `b_enc`, `b0` (2048) and `b3` (4096),

      Wb (q, k)  = step ½ (W (q, k))
      h (p, q)   = step 1 (∑ₖ x (p, k) · Wb (q, k) + b_enc q + b0 q)
      out (p, j) = step 1 (∑_q h (p, q) · Wb (q, j) + b3 j)                     (`Cert.BinaryMlp.network`, Proof/Spec.lean).

  The reference does so in one stretch of whole-array operations (Proof/RefValue.lean reads its stages at an index).
  The kernel program does so in two regions: the first binarizes `W` eight blocks of 256 rows at a time
  (Proof/Region0.lean); the second takes the data 32 blocks of 256 rows at a time, each against the whole binarized
  matrix (Proof/Region1.lean), after the biases were reshaped to rows (Proof/Entry.lean); Proof/Payload.lean reads
  the two bodies at an index, and Proof/KernelRun.lean the program's run at its result array. On the extended reals
  the two computations are literally the same sums, products, additions and comparisons: the shorter float format the
  kernel passes its matrices through changes no value, its indicator (a comparison bit widened and converted as a signed
  word) is the reference's (the bit converted as unsigned), its product with the matrix's columns is the reference's
  product with the transposed matrix, and accumulating into zero adds nothing. No law of arithmetic beyond these
  readings is used, and the inputs' finiteness is not needed.

  The three frames are the generated ones (the reference's is its generated run with the result dropped); the
  idealization rewrote nothing, so `preserves` asks nothing.
-/
import proofs.«163773_j34729105555676_1_alg».proof.Defs
import proofs.«163773_j34729105555676_1_alg».proof.Proof.Gen.Kernel
import proofs.«163773_j34729105555676_1_alg».proof.Proof.Gen.Kernel.Skeleton
import proofs.«163773_j34729105555676_1_alg».proof.Proof.Gen.Kernel.Launch
import proofs.«163773_j34729105555676_1_alg».proof.Proof.Gen.Kernel.Points
import proofs.«163773_j34729105555676_1_alg».proof.Proof.Gen.Kernel.Frame
import proofs.«163773_j34729105555676_1_alg».proof.Proof.Gen.KernelIdeal
import proofs.«163773_j34729105555676_1_alg».proof.Proof.Gen.KernelIdeal.Skeleton
import proofs.«163773_j34729105555676_1_alg».proof.Proof.Gen.KernelIdeal.Launch
import proofs.«163773_j34729105555676_1_alg».proof.Proof.Gen.KernelIdeal.Points
import proofs.«163773_j34729105555676_1_alg».proof.Proof.Gen.KernelIdeal.Frame
import proofs.«163773_j34729105555676_1_alg».proof.Proof.Gen.ReferenceIdeal
import proofs.«163773_j34729105555676_1_alg».proof.Proof.Gen.Pre_finite_inputs
import proofs.«163773_j34729105555676_1_alg».proof.Proof.Gen.ReferenceIdeal.Run
import proofs.«163773_j34729105555676_1_alg».proof.Proof.Gen.ReferenceIdeal.Read
import proofs.«163773_j34729105555676_1_alg».proof.Proof.RefValue
import proofs.«163773_j34729105555676_1_alg».proof.Proof.Region1
import proofs.«163773_j34729105555676_1_alg».proof.Proof.Entry
import proofs.«163773_j34729105555676_1_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem Cert.BinaryMlp

/-! ## The kernel program's result -/

section KernelValue

open Cert.KernelIdeal Cert.KernelIdeal.Gen

variable (m : (ℓ : Loc nD τ sig) → Buf (Elt Ideal) ℓ) (ρ : Dev nD → PrngReg)

/-- What the second region's write-backs leave in the result array is the network of the launch memory's arguments:
    the two layers of the arrays the region finds, which are the data, the binarized weights and the biases' rows. -/
theorem result_array (c : Dev nD) : (dat1 (V2 m ρ) c).arrAt 5 cfg1.N
    = network (m ((c : Thread nD τ).loc main_arg0)) (m ((c : Thread nD τ).loc main_arg1))
        (m ((c : Thread nD τ).loc main_arg2)) (m ((c : Thread nD τ).loc main_arg3)) (m ((c : Thread nD τ).loc main_arg4)) := by
  rw [Forward.final (V2 m ρ) c, Entry.data m ρ c, Entry.matrix m ρ c, Entry.benc m ρ c, Entry.b0 m ρ c, Entry.b3 m ρ c]
  rfl

/-- The kernel program runs, its result array ends at the network of its arguments, and the arguments end as launched. -/
theorem kernel_value : θ_run defs (onTc (τ := τ) (main (F := Ideal))) ⟨m, fun _ => 0, ρ⟩ (fun r => ∀ c : Dev nD,
      r.2.mem ((c.tc : Thread nD τ).loc main_v4)
        = network (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_array m ρ c), (h c).2⟩) (Run.run_result (F := Ideal) m ρ)

end KernelValue

/-! ## The claims -/

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the network of those arguments in their result
    arrays: the kernel program by `kernel_value`, the reference by its generated run, whose term is the network of ITS
    arguments (`Reference.result_eq`), which are the kernel program's. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Reference.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
